-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x128 : Shape := ⟨3, ![128, 256, 128]⟩
abbrev S_ : Shape := ⟨0, ![]⟩

class Facts : Prop where
  bcast_S_S128x256x128 : S_.BroadcastsInDim S128x256x128 (![] : Fin 0 → Fin S128x256x128.rank)
  reducesTo_S128x256x128_S_d0_1_2 : S128x256x128.ReducesTo [0, 1, 2] S_
  h_S_ : 0 < S_.numel

variable [Facts]

def fn {F : FTy → Type} [FloatOps F] (main_arg0 : FVec F S128x256x128 .f32) (main_arg1 : FVec F S128x256x128 .f32) : IVec S_ 1 :=
  let main_v0 : FVec F S128x256x128 .f32 := Host.absf main_arg0
  let main_cst : FVec F S_ .f32 := constant S_ .f32 0x7F800000#32
  let main_v1 : FVec F S128x256x128 .f32 := broadcastInDim S128x256x128 ![] bcast_S_S128x256x128 main_cst
  let main_v2 : IVec S128x256x128 1 := cmpf .olt main_v0 main_v1
  let main_c : IVec S_ 1 := constantI S_ 1 1#1
  let main_v3 : IVec S_ 1 := (fun x v => Host.reduce IntOp.andi x v reducesTo_S128x256x128_S_d0_1_2 h_S_) main_v2 main_c
  let main_v4 : FVec F S128x256x128 .f32 := Host.absf main_arg1
  let main_cst_0 : FVec F S_ .f32 := constant S_ .f32 0x7F800000#32
  let main_v5 : FVec F S128x256x128 .f32 := broadcastInDim S128x256x128 ![] bcast_S_S128x256x128 main_cst_0
  let main_v6 : IVec S128x256x128 1 := cmpf .olt main_v4 main_v5
  let main_c_1 : IVec S_ 1 := constantI S_ 1 1#1
  let main_v7 : IVec S_ 1 := (fun x v => Host.reduce IntOp.andi x v reducesTo_S128x256x128_S_d0_1_2 h_S_) main_v6 main_c_1
  let main_v8 : IVec S_ 1 := andi main_v3 main_v7
  main_v8
-- ==== Kernel.lean ====
abbrev S128x256x128 : Shape := ⟨3, ![128, 256, 128]⟩
abbrev S128x256x256 : Shape := ⟨3, ![128, 256, 256]⟩
abbrev S32x128x128 : Shape := ⟨3, ![32, 128, 128]⟩
abbrev S32x256x128 : Shape := ⟨3, ![32, 256, 128]⟩
abbrev S32x128x256 : Shape := ⟨3, ![32, 128, 256]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 3
  | .vmem => 6
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S128x256x256, .f32⟩
  | .local _ .vmem, ⟨0, _⟩ => ⟨S32x128x128, .f32⟩
  | .local _ .vmem, ⟨1, _⟩ => ⟨S32x128x128, .f32⟩
  | .local _ .vmem, ⟨2, _⟩ => ⟨S32x256x128, .f32⟩
  | .local _ .vmem, ⟨3, _⟩ => ⟨S32x256x128, .f32⟩
  | .local _ .vmem, ⟨4, _⟩ => ⟨S32x128x256, .f32⟩
  | .local _ .vmem, ⟨5, _⟩ => ⟨S32x128x256, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S32x128x128_S1x128x128_0_0_0 : ∀ a, (![0, 0, 0] : Fin 3 → Nat) a + S1x128x128.size a ≤ S32x128x128.size a
  h_S1x128x128 : 0 < S1x128x128.numel
  shapeCasts_S1x128x128_S128x128 : S1x128x128.ShapeCasts S128x128
  inb_S32x256x128_S1x256x128_0_0_0 : ∀ a, (![0, 0, 0] : Fin 3 → Nat) a + S1x256x128.size a ≤ S32x256x128.size a
  h_S1x256x128 : 0 < S1x256x128.numel
  shapeCasts_S1x256x128_S256x128 : S1x256x128.ShapeCasts S256x128
  inb_S32x128x256_S1x128x256_0_0_0 : ∀ a, (![0, 0, 0] : Fin 3 → Nat) a + S1x128x256.size a ≤ S32x128x256.size a
  h_S1x128x256 : 0 < S1x128x256.numel
  shapeCasts_S1x128x256_S128x256 : S1x128x256.ShapeCasts S128x256
  shapeCasts_S128x256_S1x128x256 : S128x256.ShapeCasts S1x128x256
  inb_S32x128x128_S1x128x128_1_0_0 : ∀ a, (![1, 0, 0] : Fin 3 → Nat) a + S1x128x128.size a ≤ S32x128x128.size a
  inb_S32x256x128_S1x256x128_1_0_0 : ∀ a, (![1, 0, 0] : Fin 3 → Nat) a + S1x256x128.size a ≤ S32x256x128.size a
  inb_S32x128x256_S1x128x256_1_0_0 : ∀ a, (![1, 0, 0] : Fin 3 → Nat) a + S1x128x256.size a ≤ S32x128x256.size a
  inb_S32x128x128_S1x128x128_2_0_0 : ∀ a, (![2, 0, 0] : Fin 3 → Nat) a + S1x128x128.size a ≤ S32x128x128.size a
  inb_S32x256x128_S1x256x128_2_0_0 : ∀ a, (![2, 0, 0] : Fin 3 → Nat) a + S1x256x128.size a ≤ S32x256x128.size a
  inb_S32x128x256_S1x128x256_2_0_0 : ∀ a, (![2, 0, 0] : Fin 3 → Nat) a + S1x128x256.size a ≤ S32x128x256.size a
  inb_S32x128x128_S1x128x128_3_0_0 : ∀ a, (![3, 0, 0] : Fin 3 → Nat) a + S1x128x128.size a ≤ S32x128x128.size a
  inb_S32x256x128_S1x256x128_3_0_0 : ∀ a, (![3, 0, 0] : Fin 3 → Nat) a + S1x256x128.size a ≤ S32x256x128.size a
  inb_S32x128x256_S1x128x256_3_0_0 : ∀ a, (![3, 0, 0] : Fin 3 → Nat) a + S1x128x256.size a ≤ S32x128x256.size a
  inb_S32x128x128_S1x128x128_4_0_0 : ∀ a, (![4, 0, 0] : Fin 3 → Nat) a + S1x128x128.size a ≤ S32x128x128.size a
  inb_S32x256x128_S1x256x128_4_0_0 : ∀ a, (![4, 0, 0] : Fin 3 → Nat) a + S1x256x128.size a ≤ S32x256x128.size a
  inb_S32x128x256_S1x128x256_4_0_0 : ∀ a, (![4, 0, 0] : Fin 3 → Nat) a + S1x128x256.size a ≤ S32x128x256.size a
  inb_S32x128x128_S1x128x128_5_0_0 : ∀ a, (![5, 0, 0] : Fin 3 → Nat) a + S1x128x128.size a ≤ S32x128x128.size a
  inb_S32x256x128_S1x256x128_5_0_0 : ∀ a, (![5, 0, 0] : Fin 3 → Nat) a + S1x256x128.size a ≤ S32x256x128.size a
  inb_S32x128x256_S1x128x256_5_0_0 : ∀ a, (![5, 0, 0] : Fin 3 → Nat) a + S1x128x256.size a ≤ S32x128x256.size a
  inb_S32x128x128_S1x128x128_6_0_0 : ∀ a, (![6, 0, 0] : Fin 3 → Nat) a + S1x128x128.size a ≤ S32x128x128.size a
  inb_S32x256x128_S1x256x128_6_0_0 : ∀ a, (![6, 0, 0] : Fin 3 → Nat) a + S1x256x128.size a ≤ S32x256x128.size a
  inb_S32x128x256_S1x128x256_6_0_0 : ∀ a, (![6, 0, 0] : Fin 3 → Nat) a + S1x128x256.size a ≤ S32x128x256.size a
  inb_S32x128x128_S1x128x128_7_0_0 : ∀ a, (![7, 0, 0] : Fin 3 → Nat) a + S1x128x128.size a ≤ S32x128x128.size a
  inb_S32x256x128_S1x256x128_7_0_0 : ∀ a, (![7, 0, 0] : Fin 3 → Nat) a + S1x256x128.size a ≤ S32x256x128.size a
  inb_S32x128x256_S1x128x256_7_0_0 : ∀ a, (![7, 0, 0] : Fin 3 → Nat) a + S1x128x256.size a ≤ S32x128x256.size a
  inb_S32x128x128_S1x128x128_8_0_0 : ∀ a, (![8, 0, 0] : Fin 3 → Nat) a + S1x128x128.size a ≤ S32x128x128.size a
  inb_S32x256x128_S1x256x128_8_0_0 : ∀ a, (![8, 0, 0] : Fin 3 → Nat) a + S1x256x128.size a ≤ S32x256x128.size a
  inb_S32x128x256_S1x128x256_8_0_0 : ∀ a, (![8, 0, 0] : Fin 3 → Nat) a + S1x128x256.size a ≤ S32x128x256.size a
  inb_S32x128x128_S1x128x128_9_0_0 : ∀ a, (![9, 0, 0] : Fin 3 → Nat) a + S1x128x128.size a ≤ S32x128x128.size a
  inb_S32x256x128_S1x256x128_9_0_0 : ∀ a, (![9, 0, 0] : Fin 3 → Nat) a + S1x256x128.size a ≤ S32x256x128.size a
  inb_S32x128x256_S1x128x256_9_0_0 : ∀ a, (![9, 0, 0] : Fin 3 → Nat) a + S1x128x256.size a ≤ S32x128x256.size a
  inb_S32x128x128_S1x128x128_10_0_0 : ∀ a, (![10, 0, 0] : Fin 3 → Nat) a + S1x128x128.size a ≤ S32x128x128.size a
  inb_S32x256x128_S1x256x128_10_0_0 : ∀ a, (![10, 0, 0] : Fin 3 → Nat) a + S1x256x128.size a ≤ S32x256x128.size a
  inb_S32x128x256_S1x128x256_10_0_0 : ∀ a, (![10, 0, 0] : Fin 3 → Nat) a + S1x128x256.size a ≤ S32x128x256.size a
  inb_S32x128x128_S1x128x128_11_0_0 : ∀ a, (![11, 0, 0] : Fin 3 → Nat) a + S1x128x128.size a ≤ S32x128x128.size a
  inb_S32x256x128_S1x256x128_11_0_0 : ∀ a, (![11, 0, 0] : Fin 3 → Nat) a + S1x256x128.size a ≤ S32x256x128.size a
  inb_S32x128x256_S1x128x256_11_0_0 : ∀ a, (![11, 0, 0] : Fin 3 → Nat) a + S1x128x256.size a ≤ S32x128x256.size a
  inb_S32x128x128_S1x128x128_12_0_0 : ∀ a, (![12, 0, 0] : Fin 3 → Nat) a + S1x128x128.size a ≤ S32x128x128.size a
  inb_S32x256x128_S1x256x128_12_0_0 : ∀ a, (![12, 0, 0] : Fin 3 → Nat) a + S1x256x128.size a ≤ S32x256x128.size a
  inb_S32x128x256_S1x128x256_12_0_0 : ∀ a, (![12, 0, 0] : Fin 3 → Nat) a + S1x128x256.size a ≤ S32x128x256.size a
  inb_S32x128x128_S1x128x128_13_0_0 : ∀ a, (![13, 0, 0] : Fin 3 → Nat) a + S1x128x128.size a ≤ S32x128x128.size a
  inb_S32x256x128_S1x256x128_13_0_0 : ∀ a, (![13, 0, 0] : Fin 3 → Nat) a + S1x256x128.size a ≤ S32x256x128.size a
  inb_S32x128x256_S1x128x256_13_0_0 : ∀ a, (![13, 0, 0] : Fin 3 → Nat) a + S1x128x256.size a ≤ S32x128x256.size a
  inb_S32x128x128_S1x128x128_14_0_0 : ∀ a, (![14, 0, 0] : Fin 3 → Nat) a + S1x128x128.size a ≤ S32x128x128.size a
  inb_S32x256x128_S1x256x128_14_0_0 : ∀ a, (![14, 0, 0] : Fin 3 → Nat) a + S1x256x128.size a ≤ S32x256x128.size a
  inb_S32x128x256_S1x128x256_14_0_0 : ∀ a, (![14, 0, 0] : Fin 3 → Nat) a + S1x128x256.size a ≤ S32x128x256.size a
  inb_S32x128x128_S1x128x128_15_0_0 : ∀ a, (![15, 0, 0] : Fin 3 → Nat) a + S1x128x128.size a ≤ S32x128x128.size a
  inb_S32x256x128_S1x256x128_15_0_0 : ∀ a, (![15, 0, 0] : Fin 3 → Nat) a + S1x256x128.size a ≤ S32x256x128.size a
  inb_S32x128x256_S1x128x256_15_0_0 : ∀ a, (![15, 0, 0] : Fin 3 → Nat) a + S1x128x256.size a ≤ S32x128x256.size a
  inb_S32x128x128_S1x128x128_16_0_0 : ∀ a, (![16, 0, 0] : Fin 3 → Nat) a + S1x128x128.size a ≤ S32x128x128.size a
  inb_S32x256x128_S1x256x128_16_0_0 : ∀ a, (![16, 0, 0] : Fin 3 → Nat) a + S1x256x128.size a ≤ S32x256x128.size a
  inb_S32x128x256_S1x128x256_16_0_0 : ∀ a, (![16, 0, 0] : Fin 3 → Nat) a + S1x128x256.size a ≤ S32x128x256.size a
  inb_S32x128x128_S1x128x128_17_0_0 : ∀ a, (![17, 0, 0] : Fin 3 → Nat) a + S1x128x128.size a ≤ S32x128x128.size a
  inb_S32x256x128_S1x256x128_17_0_0 : ∀ a, (![17, 0, 0] : Fin 3 → Nat) a + S1x256x128.size a ≤ S32x256x128.size a
  inb_S32x128x256_S1x128x256_17_0_0 : ∀ a, (![17, 0, 0] : Fin 3 → Nat) a + S1x128x256.size a ≤ S32x128x256.size a
  inb_S32x128x128_S1x128x128_18_0_0 : ∀ a, (![18, 0, 0] : Fin 3 → Nat) a + S1x128x128.size a ≤ S32x128x128.size a
  inb_S32x256x128_S1x256x128_18_0_0 : ∀ a, (![18, 0, 0] : Fin 3 → Nat) a + S1x256x128.size a ≤ S32x256x128.size a
  inb_S32x128x256_S1x128x256_18_0_0 : ∀ a, (![18, 0, 0] : Fin 3 → Nat) a + S1x128x256.size a ≤ S32x128x256.size a
  inb_S32x128x128_S1x128x128_19_0_0 : ∀ a, (![19, 0, 0] : Fin 3 → Nat) a + S1x128x128.size a ≤ S32x128x128.size a
  inb_S32x256x128_S1x256x128_19_0_0 : ∀ a, (![19, 0, 0] : Fin 3 → Nat) a + S1x256x128.size a ≤ S32x256x128.size a
  inb_S32x128x256_S1x128x256_19_0_0 : ∀ a, (![19, 0, 0] : Fin 3 → Nat) a + S1x128x256.size a ≤ S32x128x256.size a
  inb_S32x128x128_S1x128x128_20_0_0 : ∀ a, (![20, 0, 0] : Fin 3 → Nat) a + S1x128x128.size a ≤ S32x128x128.size a
  inb_S32x256x128_S1x256x128_20_0_0 : ∀ a, (![20, 0, 0] : Fin 3 → Nat) a + S1x256x128.size a ≤ S32x256x128.size a
  inb_S32x128x256_S1x128x256_20_0_0 : ∀ a, (![20, 0, 0] : Fin 3 → Nat) a + S1x128x256.size a ≤ S32x128x256.size a
  inb_S32x128x128_S1x128x128_21_0_0 : ∀ a, (![21, 0, 0] : Fin 3 → Nat) a + S1x128x128.size a ≤ S32x128x128.size a
  inb_S32x256x128_S1x256x128_21_0_0 : ∀ a, (![21, 0, 0] : Fin 3 → Nat) a + S1x256x128.size a ≤ S32x256x128.size a
  inb_S32x128x256_S1x128x256_21_0_0 : ∀ a, (![21, 0, 0] : Fin 3 → Nat) a + S1x128x256.size a ≤ S32x128x256.size a
  inb_S32x128x128_S1x128x128_22_0_0 : ∀ a, (![22, 0, 0] : Fin 3 → Nat) a + S1x128x128.size a ≤ S32x128x128.size a
  inb_S32x256x128_S1x256x128_22_0_0 : ∀ a, (![22, 0, 0] : Fin 3 → Nat) a + S1x256x128.size a ≤ S32x256x128.size a
  inb_S32x128x256_S1x128x256_22_0_0 : ∀ a, (![22, 0, 0] : Fin 3 → Nat) a + S1x128x256.size a ≤ S32x128x256.size a
  inb_S32x128x128_S1x128x128_23_0_0 : ∀ a, (![23, 0, 0] : Fin 3 → Nat) a + S1x128x128.size a ≤ S32x128x128.size a
  inb_S32x256x128_S1x256x128_23_0_0 : ∀ a, (![23, 0, 0] : Fin 3 → Nat) a + S1x256x128.size a ≤ S32x256x128.size a
  inb_S32x128x256_S1x128x256_23_0_0 : ∀ a, (![23, 0, 0] : Fin 3 → Nat) a + S1x128x256.size a ≤ S32x128x256.size a
  inb_S32x128x128_S1x128x128_24_0_0 : ∀ a, (![24, 0, 0] : Fin 3 → Nat) a + S1x128x128.size a ≤ S32x128x128.size a
  inb_S32x256x128_S1x256x128_24_0_0 : ∀ a, (![24, 0, 0] : Fin 3 → Nat) a + S1x256x128.size a ≤ S32x256x128.size a
  inb_S32x128x256_S1x128x256_24_0_0 : ∀ a, (![24, 0, 0] : Fin 3 → Nat) a + S1x128x256.size a ≤ S32x128x256.size a
  inb_S32x128x128_S1x128x128_25_0_0 : ∀ a, (![25, 0, 0] : Fin 3 → Nat) a + S1x128x128.size a ≤ S32x128x128.size a
  inb_S32x256x128_S1x256x128_25_0_0 : ∀ a, (![25, 0, 0] : Fin 3 → Nat) a + S1x256x128.size a ≤ S32x256x128.size a
  inb_S32x128x256_S1x128x256_25_0_0 : ∀ a, (![25, 0, 0] : Fin 3 → Nat) a + S1x128x256.size a ≤ S32x128x256.size a
  inb_S32x128x128_S1x128x128_26_0_0 : ∀ a, (![26, 0, 0] : Fin 3 → Nat) a + S1x128x128.size a ≤ S32x128x128.size a
  inb_S32x256x128_S1x256x128_26_0_0 : ∀ a, (![26, 0, 0] : Fin 3 → Nat) a + S1x256x128.size a ≤ S32x256x128.size a
  inb_S32x128x256_S1x128x256_26_0_0 : ∀ a, (![26, 0, 0] : Fin 3 → Nat) a + S1x128x256.size a ≤ S32x128x256.size a
  inb_S32x128x128_S1x128x128_27_0_0 : ∀ a, (![27, 0, 0] : Fin 3 → Nat) a + S1x128x128.size a ≤ S32x128x128.size a
  inb_S32x256x128_S1x256x128_27_0_0 : ∀ a, (![27, 0, 0] : Fin 3 → Nat) a + S1x256x128.size a ≤ S32x256x128.size a
  inb_S32x128x256_S1x128x256_27_0_0 : ∀ a, (![27, 0, 0] : Fin 3 → Nat) a + S1x128x256.size a ≤ S32x128x256.size a
  inb_S32x128x128_S1x128x128_28_0_0 : ∀ a, (![28, 0, 0] : Fin 3 → Nat) a + S1x128x128.size a ≤ S32x128x128.size a
  inb_S32x256x128_S1x256x128_28_0_0 : ∀ a, (![28, 0, 0] : Fin 3 → Nat) a + S1x256x128.size a ≤ S32x256x128.size a
  inb_S32x128x256_S1x128x256_28_0_0 : ∀ a, (![28, 0, 0] : Fin 3 → Nat) a + S1x128x256.size a ≤ S32x128x256.size a
  inb_S32x128x128_S1x128x128_29_0_0 : ∀ a, (![29, 0, 0] : Fin 3 → Nat) a + S1x128x128.size a ≤ S32x128x128.size a
  inb_S32x256x128_S1x256x128_29_0_0 : ∀ a, (![29, 0, 0] : Fin 3 → Nat) a + S1x256x128.size a ≤ S32x256x128.size a
  inb_S32x128x256_S1x128x256_29_0_0 : ∀ a, (![29, 0, 0] : Fin 3 → Nat) a + S1x128x256.size a ≤ S32x128x256.size a
  inb_S32x128x128_S1x128x128_30_0_0 : ∀ a, (![30, 0, 0] : Fin 3 → Nat) a + S1x128x128.size a ≤ S32x128x128.size a
  inb_S32x256x128_S1x256x128_30_0_0 : ∀ a, (![30, 0, 0] : Fin 3 → Nat) a + S1x256x128.size a ≤ S32x256x128.size a
  inb_S32x128x256_S1x128x256_30_0_0 : ∀ a, (![30, 0, 0] : Fin 3 → Nat) a + S1x128x256.size a ≤ S32x128x256.size a
  inb_S32x128x128_S1x128x128_31_0_0 : ∀ a, (![31, 0, 0] : Fin 3 → Nat) a + S1x128x128.size a ≤ S32x128x128.size a
  inb_S32x256x128_S1x256x128_31_0_0 : ∀ a, (![31, 0, 0] : Fin 3 → Nat) a + S1x256x128.size a ≤ S32x256x128.size a
  inb_S32x128x256_S1x128x256_31_0_0 : ∀ a, (![31, 0, 0] : Fin 3 → Nat) a + S1x128x256.size a ≤ S32x128x256.size a
  dot_S128x128_S256x128_S128x256_1_1_0_0_n_n_wf : DotDims.WF S128x128 S256x128 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x128.size a ≤ S128x256x128.size a
  hwx0_0 : ∀ i : grid0.Coords, EltTy.bits .f32 = 32 ∨ (Rect.block (s := S128x256x128) S32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x128.size a ≤ S128x256x128.size a
  hwx0_1 : ∀ i : grid0.Coords, EltTy.bits .f32 = 32 ∨ (Rect.block (s := S128x256x128) S32x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x256.size a ≤ S128x256x256.size a
  hwx0_2 : ∀ i : grid0.Coords, EltTy.bits .f32 = 32 ∨ (Rect.block (s := S128x256x256) S32x128x256.size (cc0_transform_2 i) (hinb0_2 i)).WholeWords (EltTy.packing .f32)

variable [Facts₀]

def dot_S128x128_S256x128_S128x256_1_1_0_0_n_n : DotDims S128x128 S256x128 S128x256 where
  lhsContracting := [1]
  rhsContracting := [1]
  lhsNonContracting := [0]
  rhsNonContracting := [0]
  lhsBatch := []
  rhsBatch := []
  wf := dot_S128x128_S256x128_S128x256_1_1_0_0_n_n_wf

abbrev win0_0 : Pipeline.Window sig grid0 :=
  Pipeline.Window.ofSpec (Memref.whole main_arg0) S32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x256x128 : Shape := ⟨3, ![128, 256, 128]⟩
abbrev S128x256x256 : Shape := ⟨3, ![128, 256, 256]⟩
abbrev S1x256x128 : Shape := ⟨3, ![1, 256, 128]⟩
abbrev S1x256x256 : Shape := ⟨3, ![1, 256, 256]⟩
abbrev S256x256 : Shape := ⟨2, ![256, 256]⟩
abbrev S256x128 : Shape := ⟨2, ![256, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S128x256x256, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![128, 1, 1, 1], ![false, false, false, false]⟩

def k0_cond2 (i : grid0.Coords) : BitVec 1 :=
  let arg3 : BitVec 32 := BitVec.ofNat 32 (i 3).val
  let c0_i32_10 : BitVec 32 := 0#32
  let v13 : BitVec 1 := Scalar.cmpi .eq arg3 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x128_S256x128_S256x256_1_1_0_0_n_n_wf : DotDims.WF S256x128 S256x128 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S128x256x128.size a
  hwx0_0 : ∀ i : grid0.Coords, EltTy.bits .f32 = 32 ∨ (Rect.block (s := S128x256x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S128x256x128.size a
  hwx0_1 : ∀ i : grid0.Coords, EltTy.bits .f32 = 32 ∨ (Rect.block (s := S128x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S128x256x256.size a
  hwx0_2 : ∀ i : grid0.Coords, EltTy.bits .f32 = 32 ∨ (Rect.block (s := S128x256x256) S1x256x256.size (cc0_transform_2 i) (hinb0_2 i)).WholeWords (EltTy.packing .f32)

variable [Facts₀]

def dot_S256x128_S256x128_S256x256_1_1_0_0_n_n : DotDims S256x128 S256x128 S256x256 where
  lhsContracting := [1]
  rhsContracting := [1]
  lhsNonContracting := [0]
  rhsNonContracting := [0]
  lhsBatch := []
  rhsBatch := []
  wf := dot_S256x128_S256x128_S256x256_1_1_0_0_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.RowProducts.lean ====
/-
  Batched row inner products. For A of extents [nb, m, d] and B of extents [nb, n, d] over the extended reals,

      P[b, i, j] = Σ_k A[b, i, k] · B[b, j, k]      (b < nb, i < m, j < n, k < d).

  Both programs of this certificate compute this one function of their two argument arrays: the kernel one batch
  slice at a time inside a block of 32 slices, the reference one slice per grid point through an accumulator that
  starts at zero. It is stated once, for any extents, and read at the whole arrays and at each program's blocks.
-/
import Idealize.ShloMosaic.PureOps.Ideal
import Idealize.ShloMosaic.Lib.ValueIdx

noncomputable section

namespace Cert.RowProducts

open Idealize.ShloMosaic Idealize.ShloMosaic.ValueIdx

/-- P[b, i, j] = Σ_k A[b, i, k] · B[b, j, k]. -/
def rowProducts {nb m n d : Nat} (A : (⟨3, ![nb, m, d]⟩ : Shape).Idx → EReal) (B : (⟨3, ![nb, n, d]⟩ : Shape).Idx → EReal) :
    (⟨3, ![nb, m, n]⟩ : Shape).Idx → EReal :=
  fun x => ∑ k : Fin d, A (ix3 (n0 := nb) (n1 := m) (x 0) (x 1) k) * B (ix3 (n0 := nb) (n1 := n) (x 0) (x 2) k)

/-- The same, at an index given by its three coordinates. -/
theorem rowProducts_apply {nb m n d : Nat} (A : (⟨3, ![nb, m, d]⟩ : Shape).Idx → EReal) (B : (⟨3, ![nb, n, d]⟩ : Shape).Idx → EReal)
    (b : Fin nb) (i : Fin m) (j : Fin n) :
    rowProducts A B (ix3 b i j) = ∑ k : Fin d, A (ix3 b i k) * B (ix3 b j k) := rfl

end Cert.RowProducts

end
-- ==== Proof.KernelSlab.lean ====
/-
  One batch slice of the kernel's body. The body loads slab s of its A block (one [1,128,128] slab) and slab s of its
  B block ([1,256,128]), drops the unit axis of each, multiplies them contracting the last axis of both into a zero
  accumulator, and puts the unit axis back: entry (0, p, q) of the result is Σ_k u[0, p, k] · v[0, q, k].
-/
import proofs.«124961_g2000400549607656_pallasbulk_79_5_alg».proof.Proof.Gen.KernelIdeal.Skeleton
import proofs.«124961_g2000400549607656_pallasbulk_79_5_alg».proof.Proof.LibMatmul
import proofs.«124961_g2000400549607656_pallasbulk_79_5_alg».proof.Proof.RowProducts
import Idealize.ShloMosaic.Lib.Pipeline.Value
import Idealize.ShloMosaic.Lib.ValueIdx

noncomputable section

namespace Cert.KernelIdeal.Slab

open Cert.KernelIdeal Cert.KernelIdeal.Gen Idealize.ShloMosaic Idealize.ShloMosaic.ValueIdx

/-! ## The operand indices of the product: left (row of the result, k), right (column of the result, k) -/

theorem lhs_row (j : S128x256.Idx) (q : dot_S128x128_S256x128_S128x256_1_1_0_0_n_n.contr.Idx) :
    (dot_S128x128_S256x128_S128x256_1_1_0_0_n_n.lhsIdx j q 0 : ℕ) = j 0 := by
  simp [DotDims.lhsIdx, dot_S128x128_S256x128_S128x256_1_1_0_0_n_n]; rfl
theorem lhs_k (j : S128x256.Idx) (q : dot_S128x128_S256x128_S128x256_1_1_0_0_n_n.contr.Idx) :
    (dot_S128x128_S256x128_S128x256_1_1_0_0_n_n.lhsIdx j q 1 : ℕ) = q ⟨0, by decide⟩ := by
  simp [DotDims.lhsIdx, dot_S128x128_S256x128_S128x256_1_1_0_0_n_n]; rfl
theorem rhs_row (j : S128x256.Idx) (q : dot_S128x128_S256x128_S128x256_1_1_0_0_n_n.contr.Idx) :
    (dot_S128x128_S256x128_S128x256_1_1_0_0_n_n.rhsIdx j q 0 : ℕ) = j 1 := by
  simp [DotDims.rhsIdx, dot_S128x128_S256x128_S128x256_1_1_0_0_n_n]; rfl
theorem rhs_k (j : S128x256.Idx) (q : dot_S128x128_S256x128_S128x256_1_1_0_0_n_n.contr.Idx) :
    (dot_S128x128_S256x128_S128x256_1_1_0_0_n_n.rhsIdx j q 1 : ℕ) = q ⟨0, by decide⟩ := by
  simp [DotDims.rhsIdx, dot_S128x128_S256x128_S128x256_1_1_0_0_n_n]; rfl

/-! ## One slice -/

/-- What the body computes from one loaded slab of each operand. -/
def slabProduct (u : Vec Ideal S1x128x128 .f32) (v : Vec Ideal S1x256x128 .f32) : FVec Ideal S1x128x256 .f32 :=
  shapeCast S1x128x256
    (matmul (φ₁ := .f32) (φ₂ := .f32) dot_S128x128_S256x128_S128x256_1_1_0_0_n_n none
      (shapeCast S128x128 u shapeCasts_S1x128x128_S128x128) (shapeCast S256x128 v shapeCasts_S1x256x128_S256x128)
      (constant S128x256 .f32 0x00000000#32))
    shapeCasts_S128x256_S1x128x256

/-- The index of a slab with its unit axis dropped, and back. -/
theorem cons_zero_ix2 {a b : Nat} (p : Fin a) (k : Fin b) :
    (Fin.cons (⟨0, Nat.one_pos⟩ : Fin 1) (ix2 p k) : (⟨3, ![1, a, b]⟩ : Shape).Idx) = ix3 (0 : Fin 1) p k := by
  funext x; match x with | ⟨0, _⟩ => rfl | ⟨1, _⟩ => rfl | ⟨2, _⟩ => rfl

/-- Entry (0, p, q) of one slice's product is the inner product of row p of the A slab with row q of the B slab. -/
theorem slabProduct_apply (u : Vec Ideal S1x128x128 .f32) (v : Vec Ideal S1x256x128 .f32) (p : Fin 128) (q : Fin 256) :
    slabProduct u v (ix3 (0 : Fin 1) p q) = ∑ k : Fin 128, u (ix3 (0 : Fin 1) p k) * v (ix3 (0 : Fin 1) q k) := by
  unfold slabProduct
  refine (shapeCast_addUnit_apply ![128, 256] _ _ (ix3 (0 : Fin 1) p q)).trans ?_
  have hj : (fun a : Fin 2 => (ix3 (0 : Fin 1) p q) a.succ) = (ix2 p q : S128x256.Idx) := by
    funext a; match a with | ⟨0, _⟩ => rfl | ⟨1, _⟩ => rfl
  refine (congrArg _ hj).trans ?_
  refine (Cert.LibMatmul.matmul_zero_sum1 dot_S128x128_S256x128_S128x256_1_1_0_0_n_n none 128 rfl rfl _ _ (ix2 p q)
    (fun k => ix2 p k) (fun k => ix2 q k) ?_ ?_).trans ?_
  · intro qq k hk
    funext a; apply Fin.ext
    match a with
    | ⟨0, _⟩ => exact lhs_row (ix2 p q) qq
    | ⟨1, _⟩ => exact (lhs_k (ix2 p q) qq).trans hk
  · intro qq k hk
    funext a; apply Fin.ext
    match a with
    | ⟨0, _⟩ => exact rhs_row (ix2 p q) qq
    | ⟨1, _⟩ => exact (rhs_k (ix2 p q) qq).trans hk
  · refine Finset.sum_congr rfl fun k _ => ?_
    rw [shapeCast_dropUnit_apply ![128, 128] u, shapeCast_dropUnit_apply ![256, 128] v]
    exact congrArg₂ (· * ·) (congrArg u (cons_zero_ix2 p k)) (congrArg v (cons_zero_ix2 q k))

end Cert.KernelIdeal.Slab

end
-- ==== Proof.KernelBlocks.lean ====
/-
  The kernel's result array. A grid point (g, h) of the 4 × 2 grid stages the A block of batches 32g … 32g+31 and rows
  128h … 128h+127, the B block of the same batches (all 256 rows), and writes back the output block of the same batches,
  rows 128h … 128h+127, all 256 columns. Inside a block the body stores 32 slabs, one per batch slice, each the product of
  the slice's A slab with its B slab; so the block it leaves is the row inner products of the two input blocks, every
  output block is a block of the row inner products of the two argument arrays, and the blocks tile the array.
-/
import proofs.«124961_g2000400549607656_pallasbulk_79_5_alg».proof.Proof.Gen.KernelIdeal.Value
import proofs.«124961_g2000400549607656_pallasbulk_79_5_alg».proof.Proof.KernelSlab

noncomputable section

namespace Cert.KernelIdeal.Blocks

open Cert.KernelIdeal Cert.KernelIdeal.Gen Cert.KernelIdeal.Slab Cert.RowProducts
open Idealize.ShloMosaic Idealize.ShloMosaic.TcCoe Idealize.ShloMosaic.ValueIdx Idealize.SL.Sem
open Idealize.ShloMosaic.Pipeline (Dat)

/-! ## One block: 32 slabs -/

/-- Slab s of a [32, r, 128] block, read through its rectangle at (0, p, k), is the block at (s, p, k). -/
theorem ld_slab {r : Nat} (s : Nat) (hs : s < 32) (inb : ∀ a, (![s, 0, 0] : Fin 3 → Nat) a + (⟨3, ![1, r, 128]⟩ : Shape).size a ≤ (⟨3, ![32, r, 128]⟩ : Shape).size a)
    (X : Vec Ideal (⟨3, ![32, r, 128]⟩ : Shape) .f32) (p : Fin r) (k : Fin 128) :
    View.ld (Val := Elt Ideal) (e' := .f32) X (Rect.unit (s := (⟨3, ![32, r, 128]⟩ : Shape)) ![s, 0, 0] (⟨3, ![1, r, 128]⟩ : Shape).size inb) (ix3 (0 : Fin 1) p k)
      = X (ix3 (⟨s, hs⟩ : Fin 32) p k) := by
  refine congrArg X (funext fun a => Fin.ext ?_)
  match a with
  | ⟨0, _⟩ => show s + 1 * 0 = s; omega
  | ⟨1, _⟩ => show 0 + 1 * p.val = p.val; omega
  | ⟨2, _⟩ => show 0 + 1 * k.val = k.val; omega

/-- The product of slab s of the A block with slab s of the B block is slab s of the two blocks' row inner products. -/
theorem slab_eq (s : Nat)
    (inbA : ∀ a, (![s, 0, 0] : Fin 3 → Nat) a + S1x128x128.size a ≤ S32x128x128.size a)
    (inbB : ∀ a, (![s, 0, 0] : Fin 3 → Nat) a + S1x256x128.size a ≤ S32x256x128.size a)
    (inbO : ∀ a, (![s, 0, 0] : Fin 3 → Nat) a + S1x128x256.size a ≤ S32x128x256.size a)
    (x0 : Vec Ideal S32x128x128 .f32) (x1 : Vec Ideal S32x256x128 .f32) (x : S1x128x256.Idx) :
    slabProduct (View.ld (Val := Elt Ideal) (e' := .f32) x0 (Rect.unit (s := S32x128x128) ![s, 0, 0] S1x128x128.size inbA))
        (View.ld (Val := Elt Ideal) (e' := .f32) x1 (Rect.unit (s := S32x256x128) ![s, 0, 0] S1x256x128.size inbB)) x
      = rowProducts x0 x1 ((Rect.unit (s := S32x128x256) ![s, 0, 0] S1x128x256.size inbO).emb x) := by
  have hs : s < 32 := by have h0 : s + 1 ≤ 32 := inbO 0; omega
  obtain ⟨z, p, q, rfl⟩ : ∃ (z : Fin 1) (p : Fin 128) (q : Fin 256), x = ix3 z p q := ⟨x 0, x 1, x 2, eq_ix3 x⟩
  obtain rfl : z = 0 := Subsingleton.elim _ _
  have he : (Rect.unit (s := S32x128x256) ![s, 0, 0] S1x128x256.size inbO).emb (ix3 (0 : Fin 1) p q) = ix3 (⟨s, hs⟩ : Fin 32) p q := by
    funext a; apply Fin.ext
    match a with
    | ⟨0, _⟩ => show s + 1 * 0 = s; omega
    | ⟨1, _⟩ => show 0 + 1 * p.val = p.val; omega
    | ⟨2, _⟩ => show 0 + 1 * q.val = q.val; omega
  refine (slabProduct_apply _ _ p q).trans ?_
  refine Eq.trans ?_ (congrArg (rowProducts x0 x1) he).symm
  rw [rowProducts_apply]
  refine Finset.sum_congr rfl fun k _ => ?_
  rw [ld_slab s hs inbA x0 p k, ld_slab s hs inbB x1 q k]

/-- What the body leaves in the output block: the row inner products of the two input blocks. Every one of the 32 stores
    writes the slab its rectangle names of that one function, and the stores tile the block. -/
theorem block_eq (x0 : Vec Ideal S32x128x128 .f32) (x1 : Vec Ideal S32x256x128 .f32) :
    out0_2 x0 x1 = rowProducts x0 x1 := by
  funext y
  unfold out0_2
  refine View.canon_apply_of_pieces (Val := Elt Ideal) (rowProducts x0 x1) _ ?_ y (cover0_2 _ _ _ _ _ _ _ _ _ _ _ _ _ _ _ _ _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact slab_eq _ (by decide) (by decide) (by decide) x0 x1

/-! ## The index maps, decided over the 8 grid points -/

/-- The A block moves with the output block on the batch and row axes and sits at 0 on the contracted axis; the B block moves
    with it on the batch axis and sits at 0 on its other two; the output block sits at 0 on the column axis. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 3 ∧ win0_2.index t (1 : Fin 3) ≤ 1 :=
  (by decide +kernel : ∀ t : Fin grid0.N, _)

/-- Every (batch block, row block) is some grid point's. -/
theorem idx_onto : ∀ (g : Fin 4) (h : Fin 2), ∃ t : Fin cfg0.N, win0_2.index t = ![g.val, h.val, 0] :=
  (by decide +kernel : ∀ (g : Fin 4) (h : Fin 2), ∃ t : Fin grid0.N, win0_2.index t = ![g.val, h.val, 0])

/-! ## What a point writes back -/

/-- Blocks of the two argument arrays at batch block g and row block h give, as their row inner products at (s, p, q), the
    arrays' row inner products at (32 g + s, 128 h + p, q). -/
theorem point_eq (A B : S128x256x128.Idx → EReal) (x0 : Vec Ideal S32x128x128 .f32) (x1 : Vec Ideal S32x256x128 .f32)
    (g h : Nat) (hg : g ≤ 3) (hh : h ≤ 1)
    (hx0 : ∀ (s : Fin 32) (p : Fin 128) (k : Fin 128),
      x0 (ix3 s p k) = A (ix3 (⟨g * 32 + s.val, by omega⟩ : Fin 128) (⟨h * 128 + p.val, by omega⟩ : Fin 256) k))
    (hx1 : ∀ (s : Fin 32) (q : Fin 256) (k : Fin 128),
      x1 (ix3 s q k) = B (ix3 (⟨g * 32 + s.val, by omega⟩ : Fin 128) q k))
    (s : Fin 32) (p : Fin 128) (q : Fin 256) :
    rowProducts x0 x1 (ix3 s p q)
      = rowProducts A B (ix3 (⟨g * 32 + s.val, by omega⟩ : Fin 128) (⟨h * 128 + p.val, by omega⟩ : Fin 256) q) := by
  rw [rowProducts_apply, rowProducts_apply]
  refine Finset.sum_congr rfl fun k _ => ?_
  rw [hx0, hx1]

variable (m : (ℓ : Loc nD τ sig) → Buf (Elt Ideal) ℓ) (ρ : Dev nD → PrngReg)

/-- The result array, as a function of the two argument arrays as launched. -/
abbrev result (c : Dev nD) : S128x256x256.Idx → EReal :=
  rowProducts (nb := 128) (m := 256) (n := 256) (d := 128) (V m c main_arg0) (V m c main_arg1)

/-- What grid point t writes back is block t of the argument arrays' row inner products. -/
theorem flushed_eq (c : Dev nD) (t : Fin cfg0.N) :
    (dats m 0 c).flushed 2 t = ((cfg0.win 2).blk t).view.read (Elt Ideal) (result m c) := by
  rw [Value.flushed2, block_eq]
  obtain ⟨e0, e1, e2, e3, e4, e5, e6, e7, e8⟩ := idx_facts t
  funext y
  obtain ⟨s, p, q, rfl⟩ : ∃ (s : Fin 32) (p : Fin 128) (q : Fin 256), y = ix3 s p q := ⟨y 0, y 1, y 2, eq_ix3 y⟩
  have hemb : ((cfg0.win 2).blk t).view.emb (ix3 s p q)
      = ix3 (⟨win0_2.index t (0 : Fin 3) * 32 + s.val, by omega⟩ : Fin 128) (⟨win0_2.index t (1 : Fin 3) * 128 + p.val, by omega⟩ : Fin 256) q := by
    funext a; apply Fin.ext
    match a with
    | ⟨0, _⟩ => show win0_2.index t (0 : Fin 3) * 32 + 1 * s.val = win0_2.index t (0 : Fin 3) * 32 + s.val; omega
    | ⟨1, _⟩ => show win0_2.index t (1 : Fin 3) * 128 + 1 * p.val = win0_2.index t (1 : Fin 3) * 128 + p.val; omega
    | ⟨2, _⟩ => show win0_2.index t (2 : Fin 3) * 256 + 1 * q.val = q.val; omega
  show rowProducts (nb := 32) (m := 128) (n := 256) (d := 128) (iblk m c 0 t) (iblk m c 1 t) (ix3 s p q)
    = result m c (((cfg0.win 2).blk t).view.emb (ix3 s p q))
  rw [hemb]
  refine point_eq (V m c main_arg0) (V m c main_arg1) _ _ (win0_2.index t (0 : Fin 3)) (win0_2.index t (1 : Fin 3)) e7 e8 ?_ ?_ s p q
  · intro s' p' k
    show V m c main_arg0 (((cfg0.win 0).blk t).view.emb (ix3 s' p' k)) = _
    refine congrArg _ (funext fun a => Fin.ext ?_)
    match a with
    | ⟨0, _⟩ => show win0_0.index t (0 : Fin 3) * 32 + 1 * s'.val = win0_2.index t (0 : Fin 3) * 32 + s'.val; omega
    | ⟨1, _⟩ => show win0_0.index t (1 : Fin 3) * 128 + 1 * p'.val = win0_2.index t (1 : Fin 3) * 128 + p'.val; omega
    | ⟨2, _⟩ => show win0_0.index t (2 : Fin 3) * 128 + 1 * k.val = k.val; omega
  · intro s' q' k
    show V m c main_arg1 (((cfg0.win 1).blk t).view.emb (ix3 s' q' k)) = _
    refine congrArg _ (funext fun a => Fin.ext ?_)
    match a with
    | ⟨0, _⟩ => show win0_1.index t (0 : Fin 3) * 32 + 1 * s'.val = win0_2.index t (0 : Fin 3) * 32 + s'.val; omega
    | ⟨1, _⟩ => show win0_1.index t (1 : Fin 3) * 256 + 1 * q'.val = q'.val; omega
    | ⟨2, _⟩ => show win0_1.index t (2 : Fin 3) * 128 + 1 * k.val = k.val; omega

/-! ## The blocks tile the array -/

/-- An index of the array is in point t's output block iff each coordinate is in the block's range on its axis. -/
theorem mem_blk (t : Fin cfg0.N) (i : S128x256x256.Idx) :
    i ∈ ((cfg0.win 2).blk t).view.set ↔ ∀ a : Fin 3, win0_2.index t a * S32x128x256.size a ≤ (i a).val
      ∧ (i a).val < win0_2.index t a * S32x128x256.size a + S32x128x256.size a := by
  show i ∈ ((View.whole main_v0).slice (win0_2.rect t)).set ↔ _
  rw [View.set_slice_whole, Rect.mem_set_unit]
  exact Iff.rfl

/-- Index (b, i, j) is in the block of the point with batch block b / 32 and row block i / 128. -/
theorem cover (i : S128x256x256.Idx) :
    ∃ t : Fin cfg0.N, (cfg0.win 2).flush t = true ∧ i ∈ ((cfg0.win 2).blk t).view.set := by
  have hi0 : (i 0).val < 128 := (i 0).isLt
  have hi1 : (i 1).val < 256 := (i 1).isLt
  have hi2 : (i 2).val < 256 := (i 2).isLt
  obtain ⟨t, ht⟩ := idx_onto ⟨(i 0).val / 32, by omega⟩ ⟨(i 1).val / 128, by omega⟩
  have q0 : win0_2.index t (0 : Fin 3) = (i 0).val / 32 := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- The result array after the run: the row inner products of the two argument arrays. -/
theorem final (c : Dev nD) : (dats m 0 c).arrAt 2 cfg0.N = result m c :=
  (dats m 0 c).arrAt_eq_of_cover 2 (result m c) (fun t _ => flushed_eq m c t) cover

/-- The kernel's run: the result array ends at the row inner products of the argument arrays, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.ReferenceSlice.lean ====
/-
  One batch slice of the reference's body. At every grid point (the contracted axis is one block, so the point is both the
  first and the last step of its accumulation) the body zeroes its [256,256] accumulator, adds to it the product of the
  slice's A rows with its B rows contracting the last axis of both, and copies the accumulator to the output block:
  entry (0, p, q) is 0 + Σ_k u[0, p, k] · v[0, q, k], and adding to zero changes nothing on the extended reals.
-/
import proofs.«124961_g2000400549607656_pallasbulk_79_5_alg».proof.Proof.Gen.ReferenceIdeal.Skeleton
import proofs.«124961_g2000400549607656_pallasbulk_79_5_alg».proof.Proof.LibMatmul
import proofs.«124961_g2000400549607656_pallasbulk_79_5_alg».proof.Proof.RowProducts
import Idealize.ShloMosaic.Lib.Pipeline.Value
import Idealize.ShloMosaic.Lib.ValueIdx

noncomputable section

namespace Cert.ReferenceIdeal.Slice

open Cert.ReferenceIdeal Cert.ReferenceIdeal.Gen Idealize.ShloMosaic Idealize.ShloMosaic.ValueIdx

/-! ## The operand indices of the product: left (row of the result, k), right (column of the result, k) -/

theorem lhs_row (j : S256x256.Idx) (q : dot_S256x128_S256x128_S256x256_1_1_0_0_n_n.contr.Idx) :
    (dot_S256x128_S256x128_S256x256_1_1_0_0_n_n.lhsIdx j q 0 : ℕ) = j 0 := by
  simp [DotDims.lhsIdx, dot_S256x128_S256x128_S256x256_1_1_0_0_n_n]; rfl
theorem lhs_k (j : S256x256.Idx) (q : dot_S256x128_S256x128_S256x256_1_1_0_0_n_n.contr.Idx) :
    (dot_S256x128_S256x128_S256x256_1_1_0_0_n_n.lhsIdx j q 1 : ℕ) = q ⟨0, by decide⟩ := by
  simp [DotDims.lhsIdx, dot_S256x128_S256x128_S256x256_1_1_0_0_n_n]; rfl
theorem rhs_row (j : S256x256.Idx) (q : dot_S256x128_S256x128_S256x256_1_1_0_0_n_n.contr.Idx) :
    (dot_S256x128_S256x128_S256x256_1_1_0_0_n_n.rhsIdx j q 0 : ℕ) = j 1 := by
  simp [DotDims.rhsIdx, dot_S256x128_S256x128_S256x256_1_1_0_0_n_n]; rfl
theorem rhs_k (j : S256x256.Idx) (q : dot_S256x128_S256x128_S256x256_1_1_0_0_n_n.contr.Idx) :
    (dot_S256x128_S256x128_S256x256_1_1_0_0_n_n.rhsIdx j q 1 : ℕ) = q ⟨0, by decide⟩ := by
  simp [DotDims.rhsIdx, dot_S256x128_S256x128_S256x256_1_1_0_0_n_n]; rfl

/-! ## One slice -/

/-- What the body stores to the output block, from the two loaded blocks: the accumulator — zeroed, then the product
    added — with a leading unit axis. -/
def slicePayload (u v : Vec Ideal S1x256x128 .f32) : FVec Ideal S1x256x256 .f32 :=
  k0_pay3 (F := Ideal) (k0_pay2 (F := Ideal) (k0_pay1 (F := Ideal)) u v)

/-- The index of a block with its unit axis dropped, and back. -/
theorem cons_zero_ix2 {a b : Nat} (p : Fin a) (k : Fin b) :
    (Fin.cons (⟨0, Nat.one_pos⟩ : Fin 1) (ix2 p k) : (⟨3, ![1, a, b]⟩ : Shape).Idx) = ix3 (0 : Fin 1) p k := by
  funext x; match x with | ⟨0, _⟩ => rfl | ⟨1, _⟩ => rfl | ⟨2, _⟩ => rfl

/-- The product into a zero accumulator, at (p, q): the inner product of row p of the A block with row q of the B block. -/
theorem product_apply (u v : Vec Ideal S1x256x128 .f32) (p q : Fin 256) :
    matmul (F := Ideal) (φ₁ := .f32) (φ₂ := .f32) dot_S256x128_S256x128_S256x256_1_1_0_0_n_n none
        (shapeCast S256x128 u shapeCasts_S1x256x128_S256x128) (shapeCast S256x128 v shapeCasts_S1x256x128_S256x128)
        (constant S256x256 .f32 0x00000000#32) (ix2 p q)
      = ∑ k : Fin 128, u (ix3 (0 : Fin 1) p k) * v (ix3 (0 : Fin 1) q k) := by
  refine (Cert.LibMatmul.matmul_zero_sum1 dot_S256x128_S256x128_S256x256_1_1_0_0_n_n none 128 rfl rfl _ _ (ix2 p q)
    (fun k => ix2 p k) (fun k => ix2 q k) ?_ ?_).trans ?_
  · intro qq k hk
    funext a; apply Fin.ext
    match a with
    | ⟨0, _⟩ => exact lhs_row (ix2 p q) qq
    | ⟨1, _⟩ => exact (lhs_k (ix2 p q) qq).trans hk
  · intro qq k hk
    funext a; apply Fin.ext
    match a with
    | ⟨0, _⟩ => exact rhs_row (ix2 p q) qq
    | ⟨1, _⟩ => exact (rhs_k (ix2 p q) qq).trans hk
  · refine Finset.sum_congr rfl fun k _ => ?_
    rw [shapeCast_dropUnit_apply ![256, 128] u, shapeCast_dropUnit_apply ![256, 128] v]
    exact congrArg₂ (· * ·) (congrArg u (cons_zero_ix2 p k)) (congrArg v (cons_zero_ix2 q k))

/-- Entry (0, p, q) of what the body stores: zero plus the inner product, which is the inner product. -/
theorem slicePayload_apply (u v : Vec Ideal S1x256x128 .f32) (p q : Fin 256) :
    slicePayload u v (ix3 (0 : Fin 1) p q) = ∑ k : Fin 128, u (ix3 (0 : Fin 1) p k) * v (ix3 (0 : Fin 1) q k) := by
  unfold slicePayload k0_pay3
  refine (shapeCast_addUnit_apply ![256, 256] _ _ (ix3 (0 : Fin 1) p q)).trans ?_
  have hj : (fun a : Fin 2 => (ix3 (0 : Fin 1) p q) a.succ) = (ix2 p q : S256x256.Idx) := by
    funext a; match a with | ⟨0, _⟩ => rfl | ⟨1, _⟩ => rfl
  refine (congrArg _ hj).trans ?_
  unfold k0_pay2 k0_pay1
  dsimp only
  rw [shapeCast_self, shapeCast_self]
  show Ideal.ofBits .f32 0x00000000#32 + _ = _
  rw [Ideal.ofBits_zero_f32, zero_add]
  exact product_apply u v p q

end Cert.ReferenceIdeal.Slice

end
-- ==== Proof.ReferenceBlocks.lean ====
/-
  The reference's result array. Grid point b of the 128 points stages batch slice b of A and of B (all 256 rows, all 128
  columns of each) and writes back batch slice b of the output. The body's one control case runs at every point: it leaves
  in the output block the accumulator — zeroed, the slice's product added — so the block is the row inner products of the
  two input blocks, every output block is a block of the row inner products of the argument arrays, and the 128 blocks
  tile the array.
-/
import proofs.«124961_g2000400549607656_pallasbulk_79_5_alg».proof.Proof.Gen.ReferenceIdeal.Value
import proofs.«124961_g2000400549607656_pallasbulk_79_5_alg».proof.Proof.ReferenceSlice

set_option maxRecDepth 16384

noncomputable section

namespace Cert.ReferenceIdeal.Blocks

open Cert.ReferenceIdeal Cert.ReferenceIdeal.Gen Cert.ReferenceIdeal.Slice Cert.RowProducts
open Idealize.ShloMosaic Idealize.ShloMosaic.TcCoe Idealize.ShloMosaic.Tactic Idealize.ShloMosaic.ValueIdx Idealize.SL.Sem
open Idealize.ShloMosaic.Pipeline (Dat)

/-! ## One block -/

theorem zero3 : (![0, 0, 0] : Fin 3 → Nat) = fun _ => 0 := funext fun a => by fin_cases a <;> rfl

/-- What the one control case leaves in the output block, from the two input blocks: each read of the accumulator reads
    the whole of what the store before it wrote, and each read of an input block reads the block. -/
theorem case_eq (c : Dev nD) (i : grid0.Coords) (arg4 : Memref sig .tc .vmem S1x256x128 .f32) (harg4 : arg4.IsWhole)
    (arg5 : Memref sig .tc .vmem S1x256x128 .f32) (harg5 : arg5.IsWhole) (arg6 : Memref sig .tc .vmem S1x256x256 .f32) (harg6 : arg6.IsWhole)
    (arg7 : Memref sig .tc .vmem S256x256 .f32) (harg7 : arg7.IsWhole) (hc0 : cond0_0 i) (hc1 : cond0_1 i)
    (x0 : Vec Ideal S1x256x128 .f32) (x1 : Vec Ideal S1x256x128 .f32) :
    out0_A_2 (F := Ideal) c i arg4 harg4 arg5 harg5 arg6 harg6 arg7 harg7 hc0 hc1 x0 x1 = slicePayload x0 x1 := by
  unfold out0_A_2
  rw [View.read_writes_eq_canon _ _ _ (cover0_A_2 c i arg4 harg4 arg5 harg5 arg6 harg6 arg7 harg7 hc0 hc1 x0 x1)]
  unfold kernelRun0_A
  dsimp only
  sl_unfold_words
  rw [View.canon_unit_zero zero3]
  rw [View.readCov_cons_toLoadRect, View.readCov_cons_toLoadRect]
  simp only [View.readAt_eq_ld, harg4.read_unread, harg5.read_unread, View.ld_unit_zero (S := S1x256x128) zero3]
  rfl

/-- So the block is the row inner products of the two input blocks. -/
theorem block_eq (c : Dev nD) (i : grid0.Coords) (arg4 : Memref sig .tc .vmem S1x256x128 .f32) (harg4 : arg4.IsWhole)
    (arg5 : Memref sig .tc .vmem S1x256x128 .f32) (harg5 : arg5.IsWhole) (arg6 : Memref sig .tc .vmem S1x256x256 .f32) (harg6 : arg6.IsWhole)
    (arg7 : Memref sig .tc .vmem S256x256 .f32) (harg7 : arg7.IsWhole) (hc0 : cond0_0 i) (hc1 : cond0_1 i)
    (x0 : Vec Ideal S1x256x128 .f32) (x1 : Vec Ideal S1x256x128 .f32) :
    out0_A_2 (F := Ideal) c i arg4 harg4 arg5 harg5 arg6 harg6 arg7 harg7 hc0 hc1 x0 x1 = rowProducts x0 x1 := by
  rw [case_eq]
  funext y
  obtain ⟨z, p, q, rfl⟩ : ∃ (z : Fin 1) (p : Fin 256) (q : Fin 256), y = ix3 z p q := ⟨y 0, y 1, y 2, eq_ix3 y⟩
  obtain rfl : z = 0 := Subsingleton.elim _ _
  rw [slicePayload_apply, rowProducts_apply]

/-! ## The index maps, decided over the 128 grid points -/

/-- Both input blocks move with the output block on the batch axis; every block sits at 0 on its other two axes. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 127 :=
  (by decide +kernel : ∀ t : Fin grid0.N, _)

/-- Every batch slice is some grid point's. -/
theorem idx_onto : ∀ g : Fin 128, ∃ t : Fin cfg0.N, win0_2.index t = ![g.val, 0, 0] :=
  (by decide +kernel : ∀ g : Fin 128, ∃ t : Fin grid0.N, win0_2.index t = ![g.val, 0, 0])

/-! ## What a point writes back -/

/-- Batch slice g of the two argument arrays gives, as its row inner products at (0, p, q), the arrays' row inner products
    at (g, p, q). -/
theorem point_eq (A B : S128x256x128.Idx → EReal) (x0 x1 : Vec Ideal S1x256x128 .f32) (g : Nat) (hg : g ≤ 127)
    (hx0 : ∀ (z : Fin 1) (p : Fin 256) (k : Fin 128), x0 (ix3 z p k) = A (ix3 (⟨g, by omega⟩ : Fin 128) p k))
    (hx1 : ∀ (z : Fin 1) (q : Fin 256) (k : Fin 128), x1 (ix3 z q k) = B (ix3 (⟨g, by omega⟩ : Fin 128) q k))
    (z : Fin 1) (p q : Fin 256) :
    rowProducts x0 x1 (ix3 z p q) = rowProducts A B (ix3 (⟨g, by omega⟩ : Fin 128) p q) := by
  rw [rowProducts_apply, rowProducts_apply]
  refine Finset.sum_congr rfl fun k _ => ?_
  rw [hx0, hx1]

variable (m : (ℓ : Loc nD τ sig) → Buf (Elt Ideal) ℓ) (ρ : Dev nD → PrngReg)

/-- The result array, as a function of the two argument arrays as launched. -/
abbrev result (c : Dev nD) : S128x256x256.Idx → EReal :=
  rowProducts (nb := 128) (m := 256) (n := 256) (d := 128) (V m c main_arg0) (V m c main_arg1)

/-- What grid point t writes back is block t of the argument arrays' row inner products. -/
theorem flushed_eq (c : Dev nD) (t : Fin cfg0.N) :
    (dats m 0 c).flushed 2 t = ((cfg0.win 2).blk t).view.read (Elt Ideal) (result m c) := by
  rw [Value.flushed2_A, block_eq]
  obtain ⟨e0, e1, e2, e3, e4, e5, e6, e7, e8⟩ := idx_facts t
  funext y
  obtain ⟨z, p, q, rfl⟩ : ∃ (z : Fin 1) (p : Fin 256) (q : Fin 256), y = ix3 z p q := ⟨y 0, y 1, y 2, eq_ix3 y⟩
  have hemb : ((cfg0.win 2).blk t).view.emb (ix3 z p q) = ix3 (⟨win0_2.index t (0 : Fin 3), by omega⟩ : Fin 128) p q := by
    funext a; apply Fin.ext
    have hz : z.val = 0 := by have := z.isLt; omega
    match a with
    | ⟨0, _⟩ => show win0_2.index t (0 : Fin 3) * 1 + 1 * z.val = win0_2.index t (0 : Fin 3); omega
    | ⟨1, _⟩ => show win0_2.index t (1 : Fin 3) * 256 + 1 * p.val = p.val; omega
    | ⟨2, _⟩ => show win0_2.index t (2 : Fin 3) * 256 + 1 * q.val = q.val; omega
  show rowProducts (nb := 1) (m := 256) (n := 256) (d := 128) (iblk m c 0 t) (iblk m c 1 t) (ix3 z p q)
    = result m c (((cfg0.win 2).blk t).view.emb (ix3 z p q))
  rw [hemb]
  refine point_eq (V m c main_arg0) (V m c main_arg1) _ _ (win0_2.index t (0 : Fin 3)) e8 ?_ ?_ z p q
  · intro z' p' k
    have hz : z'.val = 0 := by have := z'.isLt; omega
    show V m c main_arg0 (((cfg0.win 0).blk t).view.emb (ix3 z' p' k)) = _
    refine congrArg _ (funext fun a => Fin.ext ?_)
    match a with
    | ⟨0, _⟩ => show win0_0.index t (0 : Fin 3) * 1 + 1 * z'.val = win0_2.index t (0 : Fin 3); omega
    | ⟨1, _⟩ => show win0_0.index t (1 : Fin 3) * 256 + 1 * p'.val = p'.val; omega
    | ⟨2, _⟩ => show win0_0.index t (2 : Fin 3) * 128 + 1 * k.val = k.val; omega
  · intro z' q' k
    have hz : z'.val = 0 := by have := z'.isLt; omega
    show V m c main_arg1 (((cfg0.win 1).blk t).view.emb (ix3 z' q' k)) = _
    refine congrArg _ (funext fun a => Fin.ext ?_)
    match a with
    | ⟨0, _⟩ => show win0_1.index t (0 : Fin 3) * 1 + 1 * z'.val = win0_2.index t (0 : Fin 3); omega
    | ⟨1, _⟩ => show win0_1.index t (1 : Fin 3) * 256 + 1 * q'.val = q'.val; omega
    | ⟨2, _⟩ => show win0_1.index t (2 : Fin 3) * 128 + 1 * k.val = k.val; omega

/-! ## The blocks tile the array -/

/-- An index of the array is in point t's output block iff each coordinate is in the block's range on its axis. -/
theorem mem_blk (t : Fin cfg0.N) (i : S128x256x256.Idx) :
    i ∈ ((cfg0.win 2).blk t).view.set ↔ ∀ a : Fin 3, win0_2.index t a * S1x256x256.size a ≤ (i a).val
      ∧ (i a).val < win0_2.index t a * S1x256x256.size a + S1x256x256.size a := by
  show i ∈ ((View.whole main_v0).slice (win0_2.rect t)).set ↔ _
  rw [View.set_slice_whole, Rect.mem_set_unit]
  exact Iff.rfl

/-- Index (b, i, j) is in the block of the point of batch slice b. -/
theorem cover (i : S128x256x256.Idx) :
    ∃ t : Fin cfg0.N, (cfg0.win 2).flush t = true ∧ i ∈ ((cfg0.win 2).blk t).view.set := by
  have hi0 : (i 0).val < 128 := (i 0).isLt
  have hi1 : (i 1).val < 256 := (i 1).isLt
  have hi2 : (i 2).val < 256 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- The result array after the run: the row inner products of the two argument arrays. -/
theorem final (c : Dev nD) : (dats m 0 c).arrAt 2 cfg0.N = result m c :=
  (dats m 0 c).arrAt_eq_of_cover 2 (result m c) (fun t _ => flushed_eq m c t) cover

/-- The reference's run: the result array ends at the row inner products of the argument arrays, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ReferenceIdeal.Blocks

end
-- ==== Proof.lean ====
/-
  Batched row inner products, out[b, i, j] = Σ_k a[b, i, k] · b[b, j, k], for a, b of extents [128, 256, 128].

  The kernel walks a 4 × 2 grid: a point takes 32 batch slices and half of A's rows, and for each slice multiplies the
  slice's 128 staged rows of A with the slice's 256 rows of B, contracting the last axis of both into a zero accumulator.
  The reference walks 128 points, one batch slice each: it zeroes a [256, 256] accumulator, adds the slice's product of all
  256 rows of A with the 256 rows of B, and copies the accumulator out.

  Read on the extended reals, entry (b, i, j) is on the kernel's side the sum Σ_k a[b, i, k] · b[b, j, k] and on the
  reference's side 0 + that same sum; adding to zero changes nothing, so both result arrays are one function of the two
  argument arrays (RowProducts.lean), with no use of the inputs' finiteness. Each side is read in two steps: what one
  block holds after the body (KernelSlab.lean / KernelBlocks.lean: 32 slab stores, each a slab of the block's row
  inner products; ReferenceSlice.lean / ReferenceBlocks.lean: one store of the accumulator), and that the blocks the grid
  points write back are blocks of the whole array's row inner products and tile the array.

  The three frames are the generated ones; the kernel's idealization rewrote nothing, so there is nothing to preserve.
-/
import proofs.«124961_g2000400549607656_pallasbulk_79_5_alg».proof.Defs
import proofs.«124961_g2000400549607656_pallasbulk_79_5_alg».proof.Proof.Gen.Kernel
import proofs.«124961_g2000400549607656_pallasbulk_79_5_alg».proof.Proof.Gen.Kernel.Frame
import proofs.«124961_g2000400549607656_pallasbulk_79_5_alg».proof.Proof.Gen.KernelIdeal
import proofs.«124961_g2000400549607656_pallasbulk_79_5_alg».proof.Proof.Gen.KernelIdeal.Frame
import proofs.«124961_g2000400549607656_pallasbulk_79_5_alg».proof.Proof.Gen.ReferenceIdeal
import proofs.«124961_g2000400549607656_pallasbulk_79_5_alg».proof.Proof.Gen.ReferenceIdeal.Frame
import proofs.«124961_g2000400549607656_pallasbulk_79_5_alg».proof.Proof.Gen.Pre_finite_inputs
import proofs.«124961_g2000400549607656_pallasbulk_79_5_alg».proof.Proof.KernelBlocks
import proofs.«124961_g2000400549607656_pallasbulk_79_5_alg».proof.Proof.ReferenceBlocks

noncomputable section

namespace Cert.Proof

open Idealize.ShloMosaic Idealize.ShloMosaic.TcCoe Idealize.SL.Sem Cert.RowProducts

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Both runs end with the result array at the row inner products of the argument arrays, and the argument arrays agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun r h c => ⟨(h c).1.trans ?_, (h c).2⟩)
    (Cert.ReferenceIdeal.Blocks.run m' ρ')
  exact congrArg₂ (rowProducts (nb := 128) (m := 256) (n := 256) (d := 128)) (hagree c).1 (hagree c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
